-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S4096x4096 : Shape := ⟨2, ![4096, 4096]⟩
abbrev S4x4096 : Shape := ⟨2, ![4, 4096]⟩
abbrev S4096x4 : Shape := ⟨2, ![4096, 4]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4x4096 : S_.BroadcastsInDim S4x4096 (![] : Fin 0 → Fin S4x4096.rank)
  reducesTo_S4x4096_S_d0_1 : S4x4096.ReducesTo [0, 1] S_
  bcast_S_S4096x4 : S_.BroadcastsInDim S4096x4 (![] : Fin 0 → Fin S4096x4.rank)
  reducesTo_S4096x4_S_d0_1 : S4096x4.ReducesTo [0, 1] S_

variable [Facts]

def fn_part1 {F : FTy → Type} [FloatOps F] (main_v13 : IVec S_ 1) (main_v16 : IVec S4096x4 1) : IVec S_ 1 :=
  let main_c_5 : IVec S_ 1 := constantI S_ 1 1#1
  let main_v17 : IVec S_ 1 := (fun x v => Host.reduce IntOp.andi x v reducesTo_S4096x4_S_d0_1 h_S_) main_v16 main_c_5
  let main_v18 : IVec S_ 1 := andi main_v13 main_v17
  main_v18

def fn {F : FTy → Type} [FloatOps F] (main_arg0 : FVec F S2x4096x4096 .f32) (main_arg1 : FVec F S4096x4096 .f32) (main_arg2 : FVec F S4x4096 .f32) (main_arg3 : FVec F S4096x4 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4x4096 .f32 := Host.absf main_arg2
  let main_cst_2 : FVec F S_ .f32 := constant S_ .f32 0x7F800000#32
  let main_v10 : FVec F S4x4096 .f32 := broadcastInDim S4x4096 ![] bcast_S_S4x4096 main_cst_2
  let main_v11 : IVec S4x4096 1 := cmpf .olt main_v9 main_v10
  let main_c_3 : IVec S_ 1 := constantI S_ 1 1#1
  let main_v12 : IVec S_ 1 := (fun x v => Host.reduce IntOp.andi x v reducesTo_S4x4096_S_d0_1 h_S_) main_v11 main_c_3
  let main_v13 : IVec S_ 1 := andi main_v8 main_v12
  let main_v14 : FVec F S4096x4 .f32 := Host.absf main_arg3
  let main_cst_4 : FVec F S_ .f32 := constant S_ .f32 0x7F800000#32
  let main_v15 : FVec F S4096x4 .f32 := broadcastInDim S4096x4 ![] bcast_S_S4096x4 main_cst_4
  let main_v16 : IVec S4096x4 1 := cmpf .olt main_v14 main_v15
  fn_part1 (F := F) main_v13 main_v16
-- ==== Kernel.lean ====
abbrev S2x4096x4096 : Shape := ⟨3, ![2, 4096, 4096]⟩
abbrev S4096x4096 : Shape := ⟨2, ![4096, 4096]⟩
abbrev S4x4096 : Shape := ⟨2, ![4, 4096]⟩
abbrev S4096x4 : Shape := ⟨2, ![4096, 4]⟩
abbrev S8192x4096 : Shape := ⟨2, ![8192, 4096]⟩
abbrev S2048x512 : Shape := ⟨2, ![2048, 512]⟩
abbrev S1024x512 : Shape := ⟨2, ![1024, 512]⟩
abbrev S1024x4 : Shape := ⟨2, ![1024, 4]⟩
abbrev S2048x1024 : Shape := ⟨2, ![2048, 1024]⟩
abbrev S2048x4 : Shape := ⟨2, ![2048, 4]⟩
abbrev S4x512 : Shape := ⟨2, ![4, 512]⟩

abbrev nBuf : Space → Nat
  | .hbm => 11
  | .vmem => 11
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4x4096, .f32⟩
  | .hbm, ⟨3, _⟩ => ⟨S4096x4, .f32⟩
  | .hbm, ⟨4, _⟩ => ⟨S8192x4096, .f32⟩
  | .hbm, ⟨5, _⟩ => ⟨S8192x4096, .bf16⟩
  | .hbm, ⟨6, _⟩ => ⟨S4096x4096, .bf16⟩
  | .hbm, ⟨7, _⟩ => ⟨S4x4096, .bf16⟩
  | .hbm, ⟨8, _⟩ => ⟨S4096x4, .bf16⟩
  | .hbm, ⟨9, _⟩ => ⟨S8192x4096, .f32⟩
  | .hbm, ⟨10, _⟩ => ⟨S2x4096x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S4x4096, .bf16⟩
  | .local _ .vmem, ⟨5, _⟩ => ⟨S1024x4, .bf16⟩
  | .local _ .vmem, ⟨6, _⟩ => ⟨S1024x4, .bf16⟩
  | .local _ .vmem, ⟨7, _⟩ => ⟨S2048x1024, .f32⟩
  | .local _ .vmem, ⟨8, _⟩ => ⟨S2048x1024, .f32⟩
  | .local _ .vmem, ⟨9, _⟩ => ⟨S2048x1024, .f32⟩
  | .local _ .vmem, ⟨10, _⟩ => ⟨S2048x4, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg2 : BitVec 32 := BitVec.ofNat 32 (i 2).val
  let c512_i32 : BitVec 32 := 512#32
  let v7 : BitVec 32 := Scalar.muli arg2 c512_i32
  v7
def k0_off1 (i : grid0.Coords) : Fin 2 → Nat :=
  let c0_4 : Index := 0#32
  let arg2 : BitVec 32 := BitVec.ofNat 32 (i 2).val
  let c512_i32 : BitVec 32 := 512#32
  let v7 : BitVec 32 := Scalar.muli arg2 c512_i32
  let v8 : BitVec 32 := v7
  let v9 : Index := Scalar.indexCast v8
  ![0, v9.toNat]
def k0_cond2 (i : grid0.Coords) : BitVec 1 :=
  let arg2 : BitVec 32 := BitVec.ofNat 32 (i 2).val
  let c7_i32 : BitVec 32 := 7#32
  let v24 : BitVec 1 := Scalar.cmpi .eq arg2 c7_i32
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x4 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S2x4096x4096_S8192x4096 : S2x4096x4096.ShapeCasts S8192x4096
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  h_S4x512 : 0 < S4x512.numel
  shapeCasts_S4x512_S4x512 : S4x512.ShapeCasts S4x512
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  shapeCasts_S8192x4096_S2x4096x4096 : S8192x4096.ShapeCasts S2x4096x4096
  dot_S2048x512_S1024x512_S2048x1024_1_1_0_0_n_n_wf : DotDims.WF S2048x512 S1024x512 S2048x1024 [1] [1] [0] [0] [] []
  dot_S2048x512_S4x512_S2048x4_1_1_0_0_n_n_wf : DotDims.WF S2048x512 S4x512 S2048x4 [1] [1] [0] [0] [] []
  dot_S2048x4_S1024x4_S2048x1024_1_1_0_0_n_n_wf : DotDims.WF S2048x4 S1024x4 S2048x1024 [1] [1] [0] [0] [] []
  hrank0 : 0 < grid0.rank
  k0_mult1_dvd : ∀ i : grid0.Coords, 128 ∣ (k0_mult1 i).toNat
  k0_off1_inb : ∀ i : grid0.Coords, ∀ a, (k0_off1 i) a + S4x512.size a ≤ S4x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x4096.size a ≤ S4x4096.size a
  hwx0_2 : ∀ i : grid0.Coords, EltTy.bits .bf16 = 32 ∨ (Rect.block (s := S4x4096) S4x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4.size a ≤ S4096x4.size a
  hwx0_3 : ∀ i : grid0.Coords, EltTy.bits .bf16 = 32 ∨ (Rect.block (s := S4096x4) S1024x4.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x4096.size a
  hwx0_4 : ∀ i : grid0.Coords, EltTy.bits .f32 = 32 ∨ (Rect.block (s := S8192x4096) S2048x1024.size (cc0_transform_4 i) (hinb0_4 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf
def dot_S2048x512_S4x512_S2048x4_1_1_0_0_n_n : DotDims S2048x512 S4x512 S2048x4 where
  lhsContracting := [1]
  rhsContracting := [1]
  lhsNonContracting := [0]
  rhsNonContracting := [0]
  lhsBatch := []
  rhsBatch := []
  wf := dot_S2048x512_S4x512_S2048x4_1_1_0_0_n_n_wf
def dot_S2048x4_S1024x4_S2048x1024_1_1_0_0_n_n : DotDims S2048x4 S1024x4 S2048x1024 where
  lhsContracting := [1]
  rhsContracting := [1]
  lhsNonContracting := [0]
  rhsNonContracting := [0]
  lhsBatch := []
  rhsBatch := []
  wf := dot_S2048x4_S1024x4_S2048x1024_1_1_0_0_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x4096x4096 : Shape := ⟨3, ![2, 4096, 4096]⟩
abbrev S4096x4096 : Shape := ⟨2, ![4096, 4096]⟩
abbrev S4x4096 : Shape := ⟨2, ![4, 4096]⟩
abbrev S4096x4 : Shape := ⟨2, ![4096, 4]⟩
abbrev S2x4096x4 : Shape := ⟨3, ![2, 4096, 4]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4x4096, .f32⟩
  | .hbm, ⟨3, _⟩ => ⟨S4096x4, .f32⟩
  | .hbm, ⟨4, _⟩ => ⟨S2x4096x4096, .f32⟩
  | .hbm, ⟨5, _⟩ => ⟨S2x4096x4, .f32⟩
  | .hbm, ⟨6, _⟩ => ⟨S2x4096x4096, .f32⟩
  | .hbm, ⟨7, _⟩ => ⟨S_, .f32⟩
  | .hbm, ⟨8, _⟩ => ⟨S2x4096x4096, .f32⟩
  | .hbm, ⟨9, _⟩ => ⟨S2x4096x4096, .f32⟩
  | .hbm, ⟨10, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S2x4096x4096 : S_.BroadcastsInDim S2x4096x4096 (![] : Fin 0 → Fin S2x4096x4096.rank)
  dot_S2x4096x4096_S4096x4096_S2x4096x4096_2_1_01_0_n_n_wf : DotDims.WF S2x4096x4096 S4096x4096 S2x4096x4096 [2] [1] [0, 1] [0] [] []
  dot_S2x4096x4096_S4x4096_S2x4096x4_2_1_01_0_n_n_wf : DotDims.WF S2x4096x4096 S4x4096 S2x4096x4 [2] [1] [0, 1] [0] [] []
  dot_S2x4096x4_S4096x4_S2x4096x4096_2_1_01_0_n_n_wf : DotDims.WF S2x4096x4 S4096x4 S2x4096x4096 [2] [1] [0, 1] [0] [] []

variable [Facts₀]

def dot_S2x4096x4096_S4096x4096_S2x4096x4096_2_1_01_0_n_n : DotDims S2x4096x4096 S4096x4096 S2x4096x4096 where
  lhsContracting := [2]
  rhsContracting := [1]
  lhsNonContracting := [0, 1]
  rhsNonContracting := [0]
  lhsBatch := []
  rhsBatch := []
  wf := dot_S2x4096x4096_S4096x4096_S2x4096x4096_2_1_01_0_n_n_wf
def dot_S2x4096x4096_S4x4096_S2x4096x4_2_1_01_0_n_n : DotDims S2x4096x4096 S4x4096 S2x4096x4 where
  lhsContracting := [2]
  rhsContracting := [1]
  lhsNonContracting := [0, 1]
  rhsNonContracting := [0]
  lhsBatch := []
  rhsBatch := []
  wf := dot_S2x4096x4096_S4x4096_S2x4096x4_2_1_01_0_n_n_wf
def dot_S2x4096x4_S4096x4_S2x4096x4096_2_1_01_0_n_n : DotDims S2x4096x4 S4096x4 S2x4096x4096 where
  lhsContracting := [2]
  rhsContracting := [1]
  lhsNonContracting := [0, 1]
  rhsNonContracting := [0]
  lhsBatch := []
  rhsBatch := []
  wf := dot_S2x4096x4_S4096x4_S2x4096x4096_2_1_01_0_n_n_wf

class Facts : Prop extends Facts₀ where

variable [Facts]
-- ==== Proof.Pieces.lean ====
/-
  What the kernel body leaves in its two accumulators and in the output block, case by case, as the body's own
  arithmetic (the payloads) applied to the blocks it loaded.

  The body runs in one of three ways, by the position `k` of the grid point on the contracted axis:
    * first block (`k = 0`): both accumulators are set to zero, then the block's products are added;
    * a middle block: the block's products are added to what the accumulators held;
    * last block (`k = 7`): the same, and then the output block is written from the two accumulators.
  Each accumulator ends holding `acc + x·wᵀ` (resp. `la + x·aᵀ` over the block's 512 columns of `A`), with
  `acc`, `la` zero in the first case and the carried contents otherwise; the output block holds
  `acc' + (la'·bᵀ)·4` of the updated accumulators.  These hold for any float interpretation.
-/
import proofs.«110622_j91122026152535_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The 512 columns of `A` the body reads at a grid point: columns `512 k … 512 k + 511` of the resident [4, 4096] block. -/
abbrev aCols (i : grid0.Coords) (x2 : Vec F S4x4096 .bf16) : Vec F S4x512 .bf16 :=
  View.ld x2 (Rect.unit (s := S4x4096) (k0_off1 i) S4x512.size (Facts₀.k0_off1_inb i))

/-! ## A middle block -/

theorem acc_mid (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S4x4096 .bf16) (harg5 : arg5.IsWhole) (arg6 : Memref sig .tc .vmem S1024x4 .bf16) (harg6 : arg6.IsWhole) (arg7 : Memref sig .tc .vmem S2048x1024 .f32) (harg7 : arg7.IsWhole) (arg8 : Memref sig .tc .vmem S2048x1024 .f32) (harg8 : arg8.IsWhole) (arg9 : Memref sig .tc .vmem S2048x4 .f32) (harg9 : arg9.IsWhole) (hc0 : ¬cond0_0 i) (hc1 : ¬cond0_1 i)
    (x0 : Vec F S2048x512 .bf16) (x1 : Vec F S1024x512 .bf16) (x2 : Vec F S4x4096 .bf16) (x3 : Vec F S1024x4 .bf16) (xs0 : Vec F S2048x1024 .f32) (xs1 : Vec F S2048x4 .f32) :
    sout0_B_0 c i arg3 harg3 arg4 harg4 arg5 harg5 arg6 harg6 arg7 harg7 arg8 harg8 arg9 harg9 hc0 hc1 x0 x1 x2 x3 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 xs0 xs1)]
  unfold kernelRun0_B
  dsimp only
  rw [View.canon_unit_zero hz]
  simp only [View.readAt_eq_ld, harg3.read_unread, harg4.read_unread, harg5.read_unread, harg6.read_unread, harg8.read_unread, harg9.read_unread,
    View.ld_unit_zero (S := S2048x512) hz, View.ld_unit_zero (S := S1024x512) hz, View.ld_unit_zero (S := S2048x1024) hz,
    View.ld_unit_zero (S := S2048x4) hz, View.ld_unit_zero (S := S1024x4) hz]

theorem la_mid (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S4x4096 .bf16) (harg5 : arg5.IsWhole) (arg6 : Memref sig .tc .vmem S1024x4 .bf16) (harg6 : arg6.IsWhole) (arg7 : Memref sig .tc .vmem S2048x1024 .f32) (harg7 : arg7.IsWhole) (arg8 : Memref sig .tc .vmem S2048x1024 .f32) (harg8 : arg8.IsWhole) (arg9 : Memref sig .tc .vmem S2048x4 .f32) (harg9 : arg9.IsWhole) (hc0 : ¬cond0_0 i) (hc1 : ¬cond0_1 i)
    (x0 : Vec F S2048x512 .bf16) (x1 : Vec F S1024x512 .bf16) (x2 : Vec F S4x4096 .bf16) (x3 : Vec F S1024x4 .bf16) (xs0 : Vec F S2048x1024 .f32) (xs1 : Vec F S2048x4 .f32) :
    sout0_B_1 c i arg3 harg3 arg4 harg4 arg5 harg5 arg6 harg6 arg7 harg7 arg8 harg8 arg9 harg9 hc0 hc1 x0 x1 x2 x3 xs0 xs1 = k0_pay5 x0 (aCols i x2) xs1 := by
  unfold sout0_B_1
  rw [View.read_writes_eq_canon _ _ _ (scover0_B_1 c i arg3 harg3 arg4 harg4 arg5 harg5 arg6 harg6 arg7 harg7 arg8 harg8 arg9 harg9 hc0 hc1 x0 x1 x2 x3 xs0 xs1)]
  unfold kernelRun0_B
  dsimp only
  rw [View.canon_unit_zero hz]
  simp only [View.readAt_eq_ld, harg3.read_unread, harg4.read_unread, harg5.read_unread, harg6.read_unread, harg8.read_unread, harg9.read_unread,
    View.ld_unit_zero (S := S2048x512) hz, View.ld_unit_zero (S := S1024x512) hz, View.ld_unit_zero (S := S2048x1024) hz,
    View.ld_unit_zero (S := S2048x4) hz, View.ld_unit_zero (S := S1024x4) hz]

/-! ## The first block -/

theorem acc_first (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S4x4096 .bf16) (harg5 : arg5.IsWhole) (arg6 : Memref sig .tc .vmem S1024x4 .bf16) (harg6 : arg6.IsWhole) (arg7 : Memref sig .tc .vmem S2048x1024 .f32) (harg7 : arg7.IsWhole) (arg8 : Memref sig .tc .vmem S2048x1024 .f32) (harg8 : arg8.IsWhole) (arg9 : Memref sig .tc .vmem S2048x4 .f32) (harg9 : arg9.IsWhole) (hc0 : cond0_0 i) (hc1 : ¬cond0_1 i)
    (x0 : Vec F S2048x512 .bf16) (x1 : Vec F S1024x512 .bf16) (x2 : Vec F S4x4096 .bf16) (x3 : Vec F S1024x4 .bf16) :
    sout0_A_0 c i arg3 harg3 arg4 harg4 arg5 harg5 arg6 harg6 arg7 harg7 arg8 harg8 arg9 harg9 hc0 hc1 x0 x1 x2 x3 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3)]
  unfold kernelRun0_A
  dsimp only
  sl_unfold_run_names
  rw [View.canon_cons_unit_zero (S := S2048x1024) hz, View.readCov_unit_zero (S := S2048x1024) _ hz]
  simp only [View.readAt_eq_ld, harg3.read_unread, harg4.read_unread, harg5.read_unread, harg6.read_unread, harg8.read_unread, harg9.read_unread,
    View.ld_unit_zero (S := S2048x512) hz, View.ld_unit_zero (S := S1024x512) hz, View.ld_unit_zero (S := S2048x1024) hz,
    View.ld_unit_zero (S := S2048x4) hz, View.ld_unit_zero (S := S1024x4) hz]

theorem la_first (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S4x4096 .bf16) (harg5 : arg5.IsWhole) (arg6 : Memref sig .tc .vmem S1024x4 .bf16) (harg6 : arg6.IsWhole) (arg7 : Memref sig .tc .vmem S2048x1024 .f32) (harg7 : arg7.IsWhole) (arg8 : Memref sig .tc .vmem S2048x1024 .f32) (harg8 : arg8.IsWhole) (arg9 : Memref sig .tc .vmem S2048x4 .f32) (harg9 : arg9.IsWhole) (hc0 : cond0_0 i) (hc1 : ¬cond0_1 i)
    (x0 : Vec F S2048x512 .bf16) (x1 : Vec F S1024x512 .bf16) (x2 : Vec F S4x4096 .bf16) (x3 : Vec F S1024x4 .bf16) :
    sout0_A_1 c i arg3 harg3 arg4 harg4 arg5 harg5 arg6 harg6 arg7 harg7 arg8 harg8 arg9 harg9 hc0 hc1 x0 x1 x2 x3 = k0_pay5 x0 (aCols i x2) (k0_pay2 (F := F)) := by
  unfold sout0_A_1
  rw [View.read_writes_eq_canon _ _ _ (scover0_A_1 c i arg3 harg3 arg4 harg4 arg5 harg5 arg6 harg6 arg7 harg7 arg8 harg8 arg9 harg9 hc0 hc1 x0 x1 x2 x3)]
  unfold kernelRun0_A
  dsimp only
  sl_unfold_run_names
  rw [View.canon_cons_unit_zero (S := S2048x4) hz, View.readCov_unit_zero (S := S2048x4) _ hz]
  simp only [View.readAt_eq_ld, harg3.read_unread, harg4.read_unread, harg5.read_unread, harg6.read_unread, harg8.read_unread, harg9.read_unread,
    View.ld_unit_zero (S := S2048x512) hz, View.ld_unit_zero (S := S1024x512) hz, View.ld_unit_zero (S := S2048x1024) hz,
    View.ld_unit_zero (S := S2048x4) hz, View.ld_unit_zero (S := S1024x4) hz]

/-! ## The last block -/

theorem acc_last (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S4x4096 .bf16) (harg5 : arg5.IsWhole) (arg6 : Memref sig .tc .vmem S1024x4 .bf16) (harg6 : arg6.IsWhole) (arg7 : Memref sig .tc .vmem S2048x1024 .f32) (harg7 : arg7.IsWhole) (arg8 : Memref sig .tc .vmem S2048x1024 .f32) (harg8 : arg8.IsWhole) (arg9 : Memref sig .tc .vmem S2048x4 .f32) (harg9 : arg9.IsWhole) (hc0 : ¬cond0_0 i) (hc1 : cond0_1 i)
    (x0 : Vec F S2048x512 .bf16) (x1 : Vec F S1024x512 .bf16) (x2 : Vec F S4x4096 .bf16) (x3 : Vec F S1024x4 .bf16) (xs0 : Vec F S2048x1024 .f32) (xs1 : Vec F S2048x4 .f32) :
    sout0_C_0 c i arg3 harg3 arg4 harg4 arg5 harg5 arg6 harg6 arg7 harg7 arg8 harg8 arg9 harg9 hc0 hc1 x0 x1 x2 x3 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 xs0 xs1)]
  unfold kernelRun0_C
  dsimp only
  sl_unfold_run_names
  rw [View.canon_unit_zero hz]
  simp only [View.readAt_eq_ld, harg3.read_unread, harg4.read_unread, harg5.read_unread, harg6.read_unread, harg8.read_unread, harg9.read_unread,
    View.ld_unit_zero (S := S2048x512) hz, View.ld_unit_zero (S := S1024x512) hz, View.ld_unit_zero (S := S2048x1024) hz,
    View.ld_unit_zero (S := S2048x4) hz, View.ld_unit_zero (S := S1024x4) hz]

theorem la_last (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S4x4096 .bf16) (harg5 : arg5.IsWhole) (arg6 : Memref sig .tc .vmem S1024x4 .bf16) (harg6 : arg6.IsWhole) (arg7 : Memref sig .tc .vmem S2048x1024 .f32) (harg7 : arg7.IsWhole) (arg8 : Memref sig .tc .vmem S2048x1024 .f32) (harg8 : arg8.IsWhole) (arg9 : Memref sig .tc .vmem S2048x4 .f32) (harg9 : arg9.IsWhole) (hc0 : ¬cond0_0 i) (hc1 : cond0_1 i)
    (x0 : Vec F S2048x512 .bf16) (x1 : Vec F S1024x512 .bf16) (x2 : Vec F S4x4096 .bf16) (x3 : Vec F S1024x4 .bf16) (xs0 : Vec F S2048x1024 .f32) (xs1 : Vec F S2048x4 .f32) :
    sout0_C_1 c i arg3 harg3 arg4 harg4 arg5 harg5 arg6 harg6 arg7 harg7 arg8 harg8 arg9 harg9 hc0 hc1 x0 x1 x2 x3 xs0 xs1 = k0_pay5 x0 (aCols i x2) xs1 := by
  unfold sout0_C_1
  rw [View.read_writes_eq_canon _ _ _ (scover0_C_1 c i arg3 harg3 arg4 harg4 arg5 harg5 arg6 harg6 arg7 harg7 arg8 harg8 arg9 harg9 hc0 hc1 x0 x1 x2 x3 xs0 xs1)]
  unfold kernelRun0_C
  dsimp only
  sl_unfold_run_names
  rw [View.canon_unit_zero hz]
  simp only [View.readAt_eq_ld, harg3.read_unread, harg4.read_unread, harg5.read_unread, harg6.read_unread, harg8.read_unread, harg9.read_unread,
    View.ld_unit_zero (S := S2048x512) hz, View.ld_unit_zero (S := S1024x512) hz, View.ld_unit_zero (S := S2048x1024) hz,
    View.ld_unit_zero (S := S2048x4) hz, View.ld_unit_zero (S := S1024x4) hz]

theorem out_last (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S4x4096 .bf16) (harg5 : arg5.IsWhole) (arg6 : Memref sig .tc .vmem S1024x4 .bf16) (harg6 : arg6.IsWhole) (arg7 : Memref sig .tc .vmem S2048x1024 .f32) (harg7 : arg7.IsWhole) (arg8 : Memref sig .tc .vmem S2048x1024 .f32) (harg8 : arg8.IsWhole) (arg9 : Memref sig .tc .vmem S2048x4 .f32) (harg9 : arg9.IsWhole) (hc0 : ¬cond0_0 i) (hc1 : cond0_1 i)
    (x0 : Vec F S2048x512 .bf16) (x1 : Vec F S1024x512 .bf16) (x2 : Vec F S4x4096 .bf16) (x3 : Vec F S1024x4 .bf16) (xs0 : Vec F S2048x1024 .f32) (xs1 : Vec F S2048x4 .f32) :
    out0_C_4 c i arg3 harg3 arg4 harg4 arg5 harg5 arg6 harg6 arg7 harg7 arg8 harg8 arg9 harg9 hc0 hc1 x0 x1 x2 x3 xs0 xs1
      = k0_pay6 (k0_pay5 x0 (aCols i x2) xs1) x3 (k0_pay4 x0 x1 xs0) := by
  unfold out0_C_4
  rw [View.read_writes_eq_canon _ _ _ (cover0_C_4 c i arg3 harg3 arg4 harg4 arg5 harg5 arg6 harg6 arg7 harg7 arg8 harg8 arg9 harg9 hc0 hc1 x0 x1 x2 x3 xs0 xs1)]
  unfold kernelRun0_C
  dsimp only
  sl_unfold_run_names
  rw [View.canon_unit_zero hz, View.readCov_unit_zero (S := S2048x4) _ hz, View.readCov_unit_zero (S := S2048x1024) _ hz]
  simp only [View.readAt_eq_ld, harg3.read_unread, harg4.read_unread, harg5.read_unread, harg6.read_unread, harg8.read_unread, harg9.read_unread,
    View.ld_unit_zero (S := S2048x512) hz, View.ld_unit_zero (S := S1024x512) hz, View.ld_unit_zero (S := S2048x1024) hz,
    View.ld_unit_zero (S := S2048x4) hz, View.ld_unit_zero (S := S1024x4) hz]

end Cert.KernelIdeal.Pieces

end
-- ==== Proof.Payloads.lean ====
/-
  The body's arithmetic read entry by entry on the extended reals.

  Each of the three matrix products of the body contracts the LAST axis of both operands (x·wᵀ, x·aᵀ, la·bᵀ) into a
  zero accumulator, so its entry (p, n) is the plain sum over the contracted positions of left[p, q]·right[n, q].
  With that, the accumulator updates are `acc[p,n] + Σ_q x[p,q]·w[n,q]` and `la[p,r] + Σ_q x[p,q]·a[r,q]`, the
  output is `acc[p,n] + (Σ_r la[p,r]·b[n,r])·4`, and the two reset values are zero.  A change of float format is
  the identity on the extended reals, so the roundings to bf16 disappear.
-/
import proofs.«110622_j91122026152535_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.KernelIdeal.Payloads

open Cert.KernelIdeal Cert.KernelIdeal.Gen

/-! ### x·wᵀ: [2048, 512] against [1024, 512] -/

theorem xw_lhs0 (j : S2048x1024.Idx) (q : dot_S2048x512_S1024x512_S2048x1024_1_1_0_0_n_n.contr.Idx) : (dot_S2048x512_S1024x512_S2048x1024_1_1_0_0_n_n.lhsIdx j q 0).val = (j 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem xw_lhs1 (j : S2048x1024.Idx) (q : dot_S2048x512_S1024x512_S2048x1024_1_1_0_0_n_n.contr.Idx) : (dot_S2048x512_S1024x512_S2048x1024_1_1_0_0_n_n.lhsIdx j q 1).val = (q ⟨0, by decide⟩).val :=
  dot_S2048x512_S1024x512_S2048x1024_1_1_0_0_n_n.lhsIdx_val_of_single rfl j q
theorem xw_rhs0 (j : S2048x1024.Idx) (q : dot_S2048x512_S1024x512_S2048x1024_1_1_0_0_n_n.contr.Idx) : (dot_S2048x512_S1024x512_S2048x1024_1_1_0_0_n_n.rhsIdx j q 0).val = (j 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
theorem xw_rhs1 (j : S2048x1024.Idx) (q : dot_S2048x512_S1024x512_S2048x1024_1_1_0_0_n_n.contr.Idx) : (dot_S2048x512_S1024x512_S2048x1024_1_1_0_0_n_n.rhsIdx j q 1).val = (q ⟨0, by decide⟩).val :=
  dot_S2048x512_S1024x512_S2048x1024_1_1_0_0_n_n.rhsIdx_val_of_single rfl j q

/-- Entry (p, n) of the product into a zero accumulator: the sum over the 512 contracted positions of row `p` of the
    left operand times row `n` of the right one. -/
theorem xw_apply {φl φr : FTy} (l : FVec Ideal S2048x512 φl) (r : FVec Ideal S1024x512 φr) (p : Fin 2048) (n : Fin 1024) :
    matmul dot_S2048x512_S1024x512_S2048x1024_1_1_0_0_n_n none l r (constant (F := Ideal) S2048x1024 .f32 0x00000000#32) (ix2 p n)
      = ∑ q : Fin 512, l (ix2 p q) * r (ix2 n q) := by
  simp only [matmul]
  rw [Ideal.matmul_constant_zero_apply, ← Equiv.sum_comp (ValueIdx.contrEquiv1 dot_S2048x512_S1024x512_S2048x1024_1_1_0_0_n_n 512 rfl rfl).symm]
  refine Finset.sum_congr rfl fun k _ => ?_
  have hk := ValueIdx.contrEquiv1_symm_val dot_S2048x512_S1024x512_S2048x1024_1_1_0_0_n_n 512 rfl rfl k
  have el : dot_S2048x512_S1024x512_S2048x1024_1_1_0_0_n_n.lhsIdx (ix2 p n) ((ValueIdx.contrEquiv1 dot_S2048x512_S1024x512_S2048x1024_1_1_0_0_n_n 512 rfl rfl).symm k) = ix2 p k := funext fun a => Fin.ext (by
    match a with
    | ⟨0, _⟩ => exact xw_lhs0 _ _
    | ⟨1, _⟩ => exact (xw_lhs1 _ _).trans hk)
  have er : dot_S2048x512_S1024x512_S2048x1024_1_1_0_0_n_n.rhsIdx (ix2 p n) ((ValueIdx.contrEquiv1 dot_S2048x512_S1024x512_S2048x1024_1_1_0_0_n_n 512 rfl rfl).symm k) = ix2 n k := funext fun a => Fin.ext (by
    match a with
    | ⟨0, _⟩ => exact xw_rhs0 _ _
    | ⟨1, _⟩ => exact (xw_rhs1 _ _).trans hk)
  rw [el, er]

/-! ### x·aᵀ: [2048, 512] against [4, 512] -/

theorem xa_lhs0 (j : S2048x4.Idx) (q : dot_S2048x512_S4x512_S2048x4_1_1_0_0_n_n.contr.Idx) : (dot_S2048x512_S4x512_S2048x4_1_1_0_0_n_n.lhsIdx j q 0).val = (j 0).val := by
  unfold DotDims.lhsIdx
  rw [dif_neg (show ¬(0 : Fin S2048x512.rank) ∈ dot_S2048x512_S4x512_S2048x4_1_1_0_0_n_n.lhsBatch by decide), dif_pos (show (0 : Fin S2048x512.rank) ∈ dot_S2048x512_S4x512_S2048x4_1_1_0_0_n_n.lhsNonContracting by decide)]
  rfl
theorem xa_lhs1 (j : S2048x4.Idx) (q : dot_S2048x512_S4x512_S2048x4_1_1_0_0_n_n.contr.Idx) : (dot_S2048x512_S4x512_S2048x4_1_1_0_0_n_n.lhsIdx j q 1).val = (q ⟨0, by decide⟩).val :=
  dot_S2048x512_S4x512_S2048x4_1_1_0_0_n_n.lhsIdx_val_of_single rfl j q
theorem xa_rhs0 (j : S2048x4.Idx) (q : dot_S2048x512_S4x512_S2048x4_1_1_0_0_n_n.contr.Idx) : (dot_S2048x512_S4x512_S2048x4_1_1_0_0_n_n.rhsIdx j q 0).val = (j 1).val := by
  unfold DotDims.rhsIdx
  rw [dif_neg (show ¬(0 : Fin S4x512.rank) ∈ dot_S2048x512_S4x512_S2048x4_1_1_0_0_n_n.rhsBatch by decide), dif_pos (show (0 : Fin S4x512.rank) ∈ dot_S2048x512_S4x512_S2048x4_1_1_0_0_n_n.rhsNonContracting by decide)]
  rfl
theorem xa_rhs1 (j : S2048x4.Idx) (q : dot_S2048x512_S4x512_S2048x4_1_1_0_0_n_n.contr.Idx) : (dot_S2048x512_S4x512_S2048x4_1_1_0_0_n_n.rhsIdx j q 1).val = (q ⟨0, by decide⟩).val :=
  dot_S2048x512_S4x512_S2048x4_1_1_0_0_n_n.rhsIdx_val_of_single rfl j q

/-- Entry (p, n) of the product into a zero accumulator: the sum over the 512 contracted positions of row `p` of the
    left operand times row `n` of the right one. -/
theorem xa_apply {φl φr : FTy} (l : FVec Ideal S2048x512 φl) (r : FVec Ideal S4x512 φr) (p : Fin 2048) (n : Fin 4) :
    matmul dot_S2048x512_S4x512_S2048x4_1_1_0_0_n_n none l r (constant (F := Ideal) S2048x4 .f32 0x00000000#32) (ix2 p n)
      = ∑ q : Fin 512, l (ix2 p q) * r (ix2 n q) := by
  simp only [matmul]
  rw [Ideal.matmul_constant_zero_apply, ← Equiv.sum_comp (ValueIdx.contrEquiv1 dot_S2048x512_S4x512_S2048x4_1_1_0_0_n_n 512 rfl rfl).symm]
  refine Finset.sum_congr rfl fun k _ => ?_
  have hk := ValueIdx.contrEquiv1_symm_val dot_S2048x512_S4x512_S2048x4_1_1_0_0_n_n 512 rfl rfl k
  have el : dot_S2048x512_S4x512_S2048x4_1_1_0_0_n_n.lhsIdx (ix2 p n) ((ValueIdx.contrEquiv1 dot_S2048x512_S4x512_S2048x4_1_1_0_0_n_n 512 rfl rfl).symm k) = ix2 p k := funext fun a => Fin.ext (by
    match a with
    | ⟨0, _⟩ => exact xa_lhs0 _ _
    | ⟨1, _⟩ => exact (xa_lhs1 _ _).trans hk)
  have er : dot_S2048x512_S4x512_S2048x4_1_1_0_0_n_n.rhsIdx (ix2 p n) ((ValueIdx.contrEquiv1 dot_S2048x512_S4x512_S2048x4_1_1_0_0_n_n 512 rfl rfl).symm k) = ix2 n k := funext fun a => Fin.ext (by
    match a with
    | ⟨0, _⟩ => exact xa_rhs0 _ _
    | ⟨1, _⟩ => exact (xa_rhs1 _ _).trans hk)
  rw [el, er]

/-! ### la·bᵀ: [2048, 4] against [1024, 4] -/

theorem lb_lhs0 (j : S2048x1024.Idx) (q : dot_S2048x4_S1024x4_S2048x1024_1_1_0_0_n_n.contr.Idx) : (dot_S2048x4_S1024x4_S2048x1024_1_1_0_0_n_n.lhsIdx j q 0).val = (j 0).val := by
  unfold DotDims.lhsIdx
  rw [dif_neg (show ¬(0 : Fin S2048x4.rank) ∈ dot_S2048x4_S1024x4_S2048x1024_1_1_0_0_n_n.lhsBatch by decide), dif_pos (show (0 : Fin S2048x4.rank) ∈ dot_S2048x4_S1024x4_S2048x1024_1_1_0_0_n_n.lhsNonContracting by decide)]
  rfl
theorem lb_lhs1 (j : S2048x1024.Idx) (q : dot_S2048x4_S1024x4_S2048x1024_1_1_0_0_n_n.contr.Idx) : (dot_S2048x4_S1024x4_S2048x1024_1_1_0_0_n_n.lhsIdx j q 1).val = (q ⟨0, by decide⟩).val :=
  dot_S2048x4_S1024x4_S2048x1024_1_1_0_0_n_n.lhsIdx_val_of_single rfl j q
theorem lb_rhs0 (j : S2048x1024.Idx) (q : dot_S2048x4_S1024x4_S2048x1024_1_1_0_0_n_n.contr.Idx) : (dot_S2048x4_S1024x4_S2048x1024_1_1_0_0_n_n.rhsIdx j q 0).val = (j 1).val := by
  unfold DotDims.rhsIdx
  rw [dif_neg (show ¬(0 : Fin S1024x4.rank) ∈ dot_S2048x4_S1024x4_S2048x1024_1_1_0_0_n_n.rhsBatch by decide), dif_pos (show (0 : Fin S1024x4.rank) ∈ dot_S2048x4_S1024x4_S2048x1024_1_1_0_0_n_n.rhsNonContracting by decide)]
  rfl
theorem lb_rhs1 (j : S2048x1024.Idx) (q : dot_S2048x4_S1024x4_S2048x1024_1_1_0_0_n_n.contr.Idx) : (dot_S2048x4_S1024x4_S2048x1024_1_1_0_0_n_n.rhsIdx j q 1).val = (q ⟨0, by decide⟩).val :=
  dot_S2048x4_S1024x4_S2048x1024_1_1_0_0_n_n.rhsIdx_val_of_single rfl j q

/-- Entry (p, n) of the product into a zero accumulator: the sum over the 4 contracted positions of row `p` of the
    left operand times row `n` of the right one. -/
theorem lb_apply {φl φr : FTy} (l : FVec Ideal S2048x4 φl) (r : FVec Ideal S1024x4 φr) (p : Fin 2048) (n : Fin 1024) :
    matmul dot_S2048x4_S1024x4_S2048x1024_1_1_0_0_n_n none l r (constant (F := Ideal) S2048x1024 .f32 0x00000000#32) (ix2 p n)
      = ∑ q : Fin 4, l (ix2 p q) * r (ix2 n q) := by
  simp only [matmul]
  rw [Ideal.matmul_constant_zero_apply, ← Equiv.sum_comp (ValueIdx.contrEquiv1 dot_S2048x4_S1024x4_S2048x1024_1_1_0_0_n_n 4 rfl rfl).symm]
  refine Finset.sum_congr rfl fun k _ => ?_
  have hk := ValueIdx.contrEquiv1_symm_val dot_S2048x4_S1024x4_S2048x1024_1_1_0_0_n_n 4 rfl rfl k
  have el : dot_S2048x4_S1024x4_S2048x1024_1_1_0_0_n_n.lhsIdx (ix2 p n) ((ValueIdx.contrEquiv1 dot_S2048x4_S1024x4_S2048x1024_1_1_0_0_n_n 4 rfl rfl).symm k) = ix2 p k := funext fun a => Fin.ext (by
    match a with
    | ⟨0, _⟩ => exact lb_lhs0 _ _
    | ⟨1, _⟩ => exact (lb_lhs1 _ _).trans hk)
  have er : dot_S2048x4_S1024x4_S2048x1024_1_1_0_0_n_n.rhsIdx (ix2 p n) ((ValueIdx.contrEquiv1 dot_S2048x4_S1024x4_S2048x1024_1_1_0_0_n_n 4 rfl rfl).symm k) = ix2 n k := funext fun a => Fin.ext (by
    match a with
    | ⟨0, _⟩ => exact lb_rhs0 _ _
    | ⟨1, _⟩ => exact (lb_rhs1 _ _).trans hk)
  rw [el, er]

/-! ### The payloads -/

/-- The value the main accumulator is reset to is zero. -/
theorem accReset_apply (y : S2048x1024.Idx) : k0_pay1 (F := Ideal) y = 0 := by
  unfold k0_pay1
  simp only [shapeCast_self]
  exact Ideal.ofBits_zero_f32

/-- The value the low-rank accumulator is reset to is zero. -/
theorem laReset_apply (y : S2048x4.Idx) : k0_pay2 (F := Ideal) y = 0 := by
  unfold k0_pay2
  simp only [shapeCast_self]
  exact Ideal.ofBits_zero_f32

/-- One step of the main accumulator. -/
theorem accStep_apply (x : Vec Ideal S2048x512 .bf16) (w : Vec Ideal S1024x512 .bf16) (acc : Vec Ideal S2048x1024 .f32)
    (p : Fin 2048) (n : Fin 1024) :
    k0_pay4 x w acc (ix2 p n) = acc (ix2 p n) + ∑ q : Fin 512, x (ix2 p q) * w (ix2 n q) := by
  unfold k0_pay4 k0_pay3
  simp only [shapeCast_self, addf_apply]
  rw [xw_apply]

/-- One step of the low-rank accumulator. -/
theorem laStep_apply (x : Vec Ideal S2048x512 .bf16) (a : Vec Ideal S4x512 .bf16) (la : Vec Ideal S2048x4 .f32)
    (p : Fin 2048) (r : Fin 4) :
    k0_pay5 x a la (ix2 p r) = la (ix2 p r) + ∑ q : Fin 512, x (ix2 p q) * a (ix2 r q) := by
  unfold k0_pay5 k0_pay3
  simp only [shapeCast_self, addf_apply]
  rw [xa_apply]

/-- The output block from the two accumulators. -/
theorem out_apply (la : Vec Ideal S2048x4 .f32) (b : Vec Ideal S1024x4 .bf16) (acc : Vec Ideal S2048x1024 .f32)
    (p : Fin 2048) (n : Fin 1024) :
    k0_pay6 la b acc (ix2 p n)
      = acc (ix2 p n) + (∑ r : Fin 4, la (ix2 p r) * b (ix2 n r)) * Ideal.ofBits .f32 0x40800000#32 := by
  unfold k0_pay6
  simp only [shapeCast_self, addf_apply, mulf_apply, broadcast_apply]
  rw [lb_apply]
  rfl

end Cert.KernelIdeal.Payloads

end
-- ==== Proof.LibBlockedSum.lean ====
/-
  A finite sum taken block by block: an axis of `n = nb · bs` positions cut into `nb` consecutive blocks of `bs`.

  `blkIdx hn bs k q` is position `q` of block `k` (that is `bs · k + q`), `blockSum hn bs g k` the sum of `g` over block
  `k`, and `partialSum hn bs g k` the sum over the blocks `0 … k`.  In any commutative monoid the partial sums obey the
  recurrence of an accumulator that adds one block per step (`partialSum_zero`, `partialSum_succ`), and the partial
  sum after the last block is the sum over the whole axis (`partialSum_last`): the pairs (block, position in the
  block) enumerate the axis exactly once.  Only associativity and commutativity of the addition are used, so all of
  this holds on the extended reals as it stands, with no finiteness assumption.  This is the arithmetic of a matrix
  product whose contracted axis is visited block by block into an accumulator.
-/
import Mathlib.Algebra.BigOperators.Fin
import Mathlib.Algebra.BigOperators.Intervals
import Mathlib.Logic.Equiv.Fin.Basic

namespace BlockedSum

/-- Position `q` of block `k` on an axis of `n` positions cut into blocks of `bs` (reduced modulo `n` so that it is a
    position for every `k`; for a block that exists nothing is reduced: `blkIdx_val`). -/
def blkIdx {n : ℕ} (hn : 0 < n) (bs : ℕ) (k : ℕ) (q : Fin bs) : Fin n := ⟨(bs * k + q.val) % n, Nat.mod_lt _ hn⟩

theorem blkIdx_val {n nb bs : ℕ} (hn : 0 < n) (h : nb * bs = n) {k : ℕ} (hk : k < nb) (q : Fin bs) :
    (blkIdx hn bs k q).val = bs * k + q.val := by
  show (bs * k + q.val) % n = _
  apply Nat.mod_eq_of_lt
  have hq := q.isLt
  calc bs * k + q.val < bs * k + bs := by omega
    _ = bs * (k + 1) := (Nat.mul_succ bs k).symm
    _ ≤ bs * nb := Nat.mul_le_mul_left bs hk
    _ = n := by rw [Nat.mul_comm]; exact h

/-- The pairs (block, position in the block) are the positions of the axis. -/
def blkEquiv {n nb bs : ℕ} (h : nb * bs = n) : Fin nb × Fin bs ≃ Fin n := finProdFinEquiv.trans (finCongr h)

theorem blkEquiv_apply {n nb bs : ℕ} (hn : 0 < n) (h : nb * bs = n) (k : Fin nb) (q : Fin bs) :
    blkEquiv h (k, q) = blkIdx hn bs k.val q := by
  apply Fin.ext
  rw [blkIdx_val hn h k.isLt]
  show q.val + bs * k.val = _
  omega

variable {M : Type*} [AddCommMonoid M] {n : ℕ}

/-- The sum of `g` over block `k`. -/
def blockSum (hn : 0 < n) (bs : ℕ) (g : Fin n → M) (k : ℕ) : M := ∑ q : Fin bs, g (blkIdx hn bs k q)

/-- The sum of `g` over the blocks `0 … k`. -/
def partialSum (hn : 0 < n) (bs : ℕ) (g : Fin n → M) (k : ℕ) : M := ∑ k' ∈ Finset.range (k + 1), blockSum hn bs g k'

theorem partialSum_zero (hn : 0 < n) (bs : ℕ) (g : Fin n → M) : partialSum hn bs g 0 = blockSum hn bs g 0 := by
  unfold partialSum
  rw [Finset.sum_range_one]

theorem partialSum_succ (hn : 0 < n) (bs : ℕ) (g : Fin n → M) (k : ℕ) :
    partialSum hn bs g (k + 1) = partialSum hn bs g k + blockSum hn bs g (k + 1) := by
  unfold partialSum
  rw [Finset.sum_range_succ]

/-- All the blocks together are the whole axis. -/
theorem partialSum_last {nb bs : ℕ} (hn : 0 < n) (h : nb * bs = n) (g : Fin n → M) {k : ℕ} (hk : k + 1 = nb) :
    partialSum hn bs g k = ∑ i : Fin n, g i := by
  unfold partialSum
  rw [hk]
  calc ∑ k' ∈ Finset.range nb, blockSum hn bs g k'
      = ∑ k' : Fin nb, blockSum hn bs g k'.val := (Fin.sum_univ_eq_sum_range (fun k' => blockSum hn bs g k') nb).symm
    _ = ∑ k' : Fin nb, ∑ q : Fin bs, g (blkEquiv h (k', q)) := by simp only [blockSum, blkEquiv_apply hn h]
    _ = ∑ p : Fin nb × Fin bs, g (blkEquiv h p) := (Fintype.sum_prod_type (fun p : Fin nb × Fin bs => g (blkEquiv h p))).symm
    _ = ∑ i : Fin n, g i := (blkEquiv h).sum_comp g

end BlockedSum
-- ==== Proof.LoraSpec.lean ====
/-
  The function both programs compute, on the extended reals.

  With `X` the activations as a matrix [8192, 4096] (batch and sequence flattened), `W` [4096, 4096], `A` [4, 4096]
  and `B` [4096, 4], the result at row `r` and column `n` is

      Σ_i X[r,i]·W[n,i]  +  ( Σ_q ( Σ_i X[r,i]·A[q,i] ) · B[n,q] ) · 4        (`loraOut`).

  The kernel takes both inner sums over the contracted axis in eight blocks of 512, accumulating block after block;
  after block `k` its two accumulators hold the partial sums `partialSum (prodRow X W r n) k` and
  `partialSum (prodRow X A r q) k`, and after the last block it combines them (`loraLast`).  The last partial sum
  is the whole sum, so `loraLast = loraOut`: nothing but the regrouping of a finite sum is involved, and no
  finiteness of the entries is needed.
-/
import Idealize.ShloMosaic.PureOps.Ideal
import Idealize.ShloMosaic.Lib.ValueIdx
import proofs.«110622_j91122026152535_2_alg».proof.Proof.LibBlockedSum

noncomputable section

namespace Lora

open Idealize.ShloMosaic Idealize.ShloMosaic.ValueIdx

/-! ## The contracted axis: 4096 positions in eight blocks of 512 -/

/-- Position `q` of block `k` of the contracted axis (`512 k + q`). -/
def blkIdx (k : ℕ) (q : Fin 512) : Fin 4096 := BlockedSum.blkIdx (n := 4096) (by decide) 512 k q

theorem blkIdx_val {k : ℕ} (hk : k < 8) (q : Fin 512) : (blkIdx k q).val = 512 * k + q.val :=
  BlockedSum.blkIdx_val (n := 4096) (nb := 8) (by decide) rfl hk q

section
variable {M : Type*} [AddCommMonoid M]

/-- The sum of `g` over block `k` of the contracted axis. -/
def blockSum (g : Fin 4096 → M) (k : ℕ) : M := BlockedSum.blockSum (n := 4096) (by decide) 512 g k

/-- The sum of `g` over the blocks `0 … k`. -/
def partialSum (g : Fin 4096 → M) (k : ℕ) : M := BlockedSum.partialSum (n := 4096) (by decide) 512 g k

theorem blockSum_eq (g : Fin 4096 → M) (k : ℕ) : blockSum g k = ∑ q : Fin 512, g (blkIdx k q) := rfl

theorem partialSum_zero (g : Fin 4096 → M) : partialSum g 0 = blockSum g 0 :=
  BlockedSum.partialSum_zero (n := 4096) (by decide) 512 g

theorem partialSum_succ (g : Fin 4096 → M) (k : ℕ) : partialSum g (k + 1) = partialSum g k + blockSum g (k + 1) :=
  BlockedSum.partialSum_succ (n := 4096) (by decide) 512 g k

/-- The eight blocks together are the whole axis. -/
theorem partialSum_seven (g : Fin 4096 → M) : partialSum g 7 = ∑ i : Fin 4096, g i :=
  BlockedSum.partialSum_last (n := 4096) (nb := 8) (by decide) rfl g rfl

end

/-! ## The specification -/

/-- A matrix of extended reals, indexed as the programs index a rank-2 array. -/
abbrev Mat (a b : ℕ) : Type := (⟨2, ![a, b]⟩ : Shape).Idx → EReal

/-- The scale 4 (the f32 word of 4.0), as both programs spell it. -/
def four : EReal := Ideal.ofBits .f32 0x40800000#32

/-- The products along the contracted axis of row `r` of `X` and row `n` of `Y`. -/
def prodRow {a b : ℕ} (X : Mat a 4096) (Y : Mat b 4096) (r : Fin a) (n : Fin b) : Fin 4096 → EReal :=
  fun i => X (ix2 r i) * Y (ix2 n i)

/-- Row `p` of the block of 2048 rows a grid point works on: the grid's 128 points run over 4 row blocks, 4 column
    blocks and 8 blocks of the contracted axis, the last fastest, so point `t` is in row block `t / 32`. -/
def rowOf (t : ℕ) (p : Fin 2048) : Fin 8192 := ⟨2048 * (t / 32 % 4) + p.val, by have := p.isLt; omega⟩

/-- Column `n` of the block of 1024 columns of grid point `t`: column block `(t / 8) mod 4`. -/
def colOf (t : ℕ) (n : Fin 1024) : Fin 4096 := ⟨1024 * (t / 8 % 4) + n.val, by have := n.isLt; omega⟩

/-- The result, entry by entry. -/
def loraOut (X : Mat 8192 4096) (W : Mat 4096 4096) (A : Mat 4 4096) (B : Mat 4096 4) : Mat 8192 4096 :=
  fun j => (∑ i, prodRow X W (j 0) (j 1) i) + (∑ q : Fin 4, (∑ i, prodRow X A (j 0) q i) * B (ix2 (j 1) q)) * four

/-- The same from the accumulators after the last of the eight blocks. -/
def loraLast (X : Mat 8192 4096) (W : Mat 4096 4096) (A : Mat 4 4096) (B : Mat 4096 4) : Mat 8192 4096 :=
  fun j => partialSum (prodRow X W (j 0) (j 1)) 7
    + (∑ q : Fin 4, partialSum (prodRow X A (j 0) q) 7 * B (ix2 (j 1) q)) * four

theorem loraLast_eq (X : Mat 8192 4096) (W : Mat 4096 4096) (A : Mat 4 4096) (B : Mat 4096 4) :
    loraLast X W A B = loraOut X W A B := by
  funext j
  simp only [loraLast, loraOut, partialSum_seven]

end Lora

end
-- ==== Proof.Steps.lean ====
/-
  The accumulator recurrence, entry by entry, against the partial sums of the specification.

  Here the loaded blocks are variables, known only through where their entries sit in the full matrices:
  `xb[p,q] = X[ro p, 512 k + q]`, `wb[n,q] = W[co n, 512 k + q]`, `ac[r,q] = A[r, 512 k + q]`, `bb[n,r] = B[co n, r]`
  for some placement `ro` of the block's rows and `co` of its columns.  Then a block's contribution to an
  accumulator entry is the block sum of the products along the contracted axis (`blockProd`), the first step
  leaves partial sum 0, a later step takes partial sum `k` to partial sum `k + 1`, and the final combination of the
  two accumulators at partial sum 7 is the specification's `loraLast`.
-/
import proofs.«110622_j91122026152535_2_alg».proof.Proof.Payloads
import proofs.«110622_j91122026152535_2_alg».proof.Proof.LoraSpec

noncomputable section

open Idealize.ShloMosaic Idealize.ShloMosaic.TcCoe Idealize.ShloMosaic.ValueIdx

namespace Cert.KernelIdeal.Steps

open Cert.KernelIdeal Cert.KernelIdeal.Gen Cert.KernelIdeal.Payloads Lora

/-- Rows of two loaded blocks that are block `k` of rows `r` of `X` and `s` of `Y`: their products sum to the block sum. -/
theorem blockProd {a b : ℕ} (X : Mat a 4096) (Y : Mat b 4096) (r : Fin a) (s : Fin b) (k : ℕ)
    (xrow yrow : Fin 512 → EReal) (hx : ∀ q, xrow q = X (ix2 r (blkIdx k q))) (hy : ∀ q, yrow q = Y (ix2 s (blkIdx k q))) :
    ∑ q : Fin 512, xrow q * yrow q = blockSum (prodRow X Y r s) k := by
  rw [blockSum_eq]
  unfold prodRow
  exact Finset.sum_congr rfl fun q _ => by rw [hx q, hy q]

variable (X : Mat 8192 4096) (W : Mat 4096 4096) (A : Mat 4 4096) (B : Mat 4096 4)
variable (ro : Fin 2048 → Fin 8192) (co : Fin 1024 → Fin 4096)
variable (xb : Vec Ideal S2048x512 .bf16) (wb : Vec Ideal S1024x512 .bf16) (ac : Vec Ideal S4x512 .bf16) (bb : Vec Ideal S1024x4 .bf16)

/-- First block: the main accumulator, reset and stepped once, holds partial sum 0. -/
theorem acc_first (hx : ∀ p q, xb (ix2 p q) = X (ix2 (ro p) (blkIdx 0 q))) (hw : ∀ n q, wb (ix2 n q) = W (ix2 (co n) (blkIdx 0 q)))
    (p : Fin 2048) (n : Fin 1024) :
    k0_pay4 xb wb (k0_pay1 (F := Ideal)) (ix2 p n) = partialSum (prodRow X W (ro p) (co n)) 0 := by
  rw [accStep_apply, accReset_apply, zero_add, partialSum_zero]
  exact blockProd X W (ro p) (co n) 0 (fun q => xb (ix2 p q)) (fun q => wb (ix2 n q)) (hx p) (hw n)

/-- A later block: partial sum `k` becomes partial sum `k + 1`. -/
theorem acc_next (k : ℕ) (acc : Vec Ideal S2048x1024 .f32)
    (hacc : ∀ p n, acc (ix2 p n) = partialSum (prodRow X W (ro p) (co n)) k)
    (hx : ∀ p q, xb (ix2 p q) = X (ix2 (ro p) (blkIdx (k + 1) q))) (hw : ∀ n q, wb (ix2 n q) = W (ix2 (co n) (blkIdx (k + 1) q)))
    (p : Fin 2048) (n : Fin 1024) :
    k0_pay4 xb wb acc (ix2 p n) = partialSum (prodRow X W (ro p) (co n)) (k + 1) := by
  rw [accStep_apply, hacc, partialSum_succ]
  exact congrArg (partialSum (prodRow X W (ro p) (co n)) k + ·)
    (blockProd X W (ro p) (co n) (k + 1) (fun q => xb (ix2 p q)) (fun q => wb (ix2 n q)) (hx p) (hw n))

/-- First block: the low-rank accumulator holds partial sum 0. -/
theorem la_first (hx : ∀ p q, xb (ix2 p q) = X (ix2 (ro p) (blkIdx 0 q))) (ha : ∀ r q, ac (ix2 r q) = A (ix2 r (blkIdx 0 q)))
    (p : Fin 2048) (r : Fin 4) :
    k0_pay5 xb ac (k0_pay2 (F := Ideal)) (ix2 p r) = partialSum (prodRow X A (ro p) r) 0 := by
  rw [laStep_apply, laReset_apply, zero_add, partialSum_zero]
  exact blockProd X A (ro p) r 0 (fun q => xb (ix2 p q)) (fun q => ac (ix2 r q)) (hx p) (ha r)

/-- A later block of the low-rank accumulator. -/
theorem la_next (k : ℕ) (la : Vec Ideal S2048x4 .f32)
    (hla : ∀ p r, la (ix2 p r) = partialSum (prodRow X A (ro p) r) k)
    (hx : ∀ p q, xb (ix2 p q) = X (ix2 (ro p) (blkIdx (k + 1) q))) (ha : ∀ r q, ac (ix2 r q) = A (ix2 r (blkIdx (k + 1) q)))
    (p : Fin 2048) (r : Fin 4) :
    k0_pay5 xb ac la (ix2 p r) = partialSum (prodRow X A (ro p) r) (k + 1) := by
  rw [laStep_apply, hla, partialSum_succ]
  exact congrArg (partialSum (prodRow X A (ro p) r) k + ·)
    (blockProd X A (ro p) r (k + 1) (fun q => xb (ix2 p q)) (fun q => ac (ix2 r q)) (hx p) (ha r))

/-- After the last block: the output entry is the specification's. -/
theorem out_last (acc : Vec Ideal S2048x1024 .f32) (la : Vec Ideal S2048x4 .f32)
    (hacc : ∀ p n, acc (ix2 p n) = partialSum (prodRow X W (ro p) (co n)) 7)
    (hla : ∀ p r, la (ix2 p r) = partialSum (prodRow X A (ro p) r) 7)
    (hb : ∀ n r, bb (ix2 n r) = B (ix2 (co n) r)) (p : Fin 2048) (n : Fin 1024) :
    k0_pay6 la bb acc (ix2 p n) = loraLast X W A B (ix2 (ro p) (co n)) := by
  rw [out_apply, hacc]
  show _ = partialSum (prodRow X W (ro p) (co n)) 7 + (∑ q : Fin 4, partialSum (prodRow X A (ro p) q) 7 * B (ix2 (co n) q)) * four
  refine congrArg (partialSum (prodRow X W (ro p) (co n)) 7 + ·) (congrArg (· * four) ?_)
  exact Finset.sum_congr rfl fun q _ => by rw [hla p q, hb n q]

end Cert.KernelIdeal.Steps

end
-- ==== Proof.Blocks.lean ====
/-
  Where the entries of the blocks a grid point loads sit in the four matrices the kernel is launched on.

  The grid's 128 points are (row block, column block, block of the contracted axis) = (t / 32, (t / 8) mod 4, t mod 8),
  the last fastest.  At point `t` the pipeline hands the body rows `2048 (t / 32) …` and columns `512 (t mod 8) …` of
  `X`, rows `1024 ((t / 8) mod 4) …` and the same columns of `W`, all of `A` — of which the body takes columns
  `512 (t mod 8) …` itself — and rows `1024 ((t / 8) mod 4) …` of `B`.  The relations between the printed index maps
  and these quotients are decided once over the grid.
-/
import proofs.«110622_j91122026152535_2_alg».proof.Proof.Gen.KernelIdeal.Frame
import proofs.«110622_j91122026152535_2_alg».proof.Proof.Pieces
import proofs.«110622_j91122026152535_2_alg».proof.Proof.LoraSpec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Pieces Lora

variable {F : FTy → Type} [FloatOps F]
variable (m : (ℓ : Loc nD τ sig) → Buf (Elt F) ℓ)

/-- The printed index maps and the last grid coordinate as quotients and remainders of the point's number. -/
theorem idx_facts : ∀ t : Fin cfg0.N,
    win0_0.index t (0 : Fin 2) = t.val / 32 % 4 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = 0
    ∧ win0_3.index t (0 : Fin 2) = t.val / 8 % 4 ∧ win0_3.index t (1 : Fin 2) = 0
    ∧ win0_4.index t (0 : Fin 2) = t.val / 32 % 4 ∧ win0_4.index t (1 : Fin 2) = t.val / 8 % 4
    ∧ (grid0.coords t 2).val = t.val % 8 :=
  (by decide +kernel : ∀ t : Fin grid0.N, _)

/-- Entry (p, q) of the block of `X`. -/
theorem xBlock_apply (c : Dev nD) (t : Fin cfg0.N) (p : Fin 2048) (q : Fin 512) :
    (iblk m c 0 t : Vec F S2048x512 .bf16) (ix2 p q) = V m c main_v1 (ix2 (rowOf t.val p) (blkIdx (t.val % 8) q)) := by
  obtain ⟨e0, e1, -⟩ := idx_facts t
  have hN : t.val < 128 := lt_of_lt_of_eq t.isLt (show cfg0.N = 128 from N_0)
  show V m c main_v1 (((cfg0.win 0).blk t).view.emb (ix2 p q)) = V m c main_v1 _
  refine congrArg (V m c main_v1) (funext fun a => Fin.ext ?_)
  match a with
  | ⟨0, _⟩ =>
    show win0_0.index t (0 : Fin 2) * 2048 + 1 * p.val = 2048 * (t.val / 32 % 4) + p.val
    rw [e0]; omega
  | ⟨1, _⟩ =>
    show win0_0.index t (1 : Fin 2) * 512 + 1 * q.val = (blkIdx (t.val % 8) q).val
    rw [e1, blkIdx_val (by omega)]; omega

/-- Entry (n, q) of the block of `W`. -/
theorem wBlock_apply (c : Dev nD) (t : Fin cfg0.N) (n : Fin 1024) (q : Fin 512) :
    (iblk m c 1 t : Vec F S1024x512 .bf16) (ix2 n q) = V m c main_v2 (ix2 (colOf t.val n) (blkIdx (t.val % 8) q)) := by
  obtain ⟨-, -, e0, e1, -⟩ := idx_facts t
  have hN : t.val < 128 := lt_of_lt_of_eq t.isLt (show cfg0.N = 128 from N_0)
  show V m c main_v2 (((cfg0.win 1).blk t).view.emb (ix2 n q)) = V m c main_v2 _
  refine congrArg (V m c main_v2) (funext fun a => Fin.ext ?_)
  match a with
  | ⟨0, _⟩ =>
    show win0_1.index t (0 : Fin 2) * 1024 + 1 * n.val = 1024 * (t.val / 8 % 4) + n.val
    rw [e0]; omega
  | ⟨1, _⟩ =>
    show win0_1.index t (1 : Fin 2) * 512 + 1 * q.val = (blkIdx (t.val % 8) q).val
    rw [e1, blkIdx_val (by omega)]; omega

/-- The block of `A` is all of it. -/
theorem aBlock_apply (c : Dev nD) (t : Fin cfg0.N) (r : Fin 4) (z : Fin 4096) :
    (iblk m c 2 t : Vec F S4x4096 .bf16) (ix2 r z) = V m c main_v3 (ix2 r z) := by
  obtain ⟨-, -, -, -, e0, e1, -⟩ := idx_facts t
  show V m c main_v3 (((cfg0.win 2).blk t).view.emb (ix2 r z)) = V m c main_v3 _
  refine congrArg (V m c main_v3) (funext fun a => Fin.ext ?_)
  match a with
  | ⟨0, _⟩ =>
    show win0_2.index t (0 : Fin 2) * 4 + 1 * r.val = r.val
    rw [e0]; omega
  | ⟨1, _⟩ =>
    show win0_2.index t (1 : Fin 2) * 4096 + 1 * z.val = z.val
    rw [e1]; omega

/-- The columns of `A` the body takes at grid coordinates `i`: block `i 2` of the contracted axis. -/
theorem aCols_apply (i : grid0.Coords) (x2 : Vec F S4x4096 .bf16) (r : Fin 4) (q : Fin 512) :
    aCols i x2 (ix2 r q) = x2 (ix2 r (blkIdx (i 2).val q)) := by
  have hi : (i 2).val < 8 := (i 2).isLt
  show x2 ((Rect.unit (s := S4x4096) (k0_off1 i) S4x512.size (Facts₀.k0_off1_inb i)).emb (ix2 r q)) = x2 _
  refine congrArg x2 (funext fun a => Fin.ext ?_)
  match a with
  | ⟨0, _⟩ =>
    show k0_off1 i (0 : Fin 2) + 1 * r.val = r.val
    rw [k0_off1_eq]; show 0 + 1 * r.val = r.val; omega
  | ⟨1, _⟩ =>
    show k0_off1 i (1 : Fin 2) + 1 * q.val = (blkIdx (i 2).val q).val
    rw [k0_off1_eq, blkIdx_val hi]; show 512 * (i 2).val + 1 * q.val = _; omega

/-- Entry (r, q) of the columns of `A` the body takes at point `t`. -/
theorem aCols_block_apply (c : Dev nD) (t : Fin cfg0.N) (r : Fin 4) (q : Fin 512) :
    aCols (grid0.coords t) (iblk m c 2 t : Vec F S4x4096 .bf16) (ix2 r q) = V m c main_v3 (ix2 r (blkIdx (t.val % 8) q)) := by
  have e := (idx_facts t).2.2.2.2.2.2.2.2.2.2
  rw [aCols_apply, aBlock_apply, e]

/-- Entry (n, r) of the block of `B`. -/
theorem bBlock_apply (c : Dev nD) (t : Fin cfg0.N) (n : Fin 1024) (r : Fin 4) :
    (iblk m c 3 t : Vec F S1024x4 .bf16) (ix2 n r) = V m c main_v4 (ix2 (colOf t.val n) r) := by
  obtain ⟨-, -, -, -, -, -, e0, e1, -⟩ := idx_facts t
  show V m c main_v4 (((cfg0.win 3).blk t).view.emb (ix2 n r)) = V m c main_v4 _
  refine congrArg (V m c main_v4) (funext fun a => Fin.ext ?_)
  match a with
  | ⟨0, _⟩ =>
    show win0_3.index t (0 : Fin 2) * 1024 + 1 * n.val = 1024 * (t.val / 8 % 4) + n.val
    rw [e0]; omega
  | ⟨1, _⟩ =>
    show win0_3.index t (1 : Fin 2) * 4 + 1 * r.val = r.val
    rw [e1]; omega

end Cert.KernelIdeal.Blocks

end
-- ==== Proof.Invariant.lean ====
/-
  What the two accumulators and the output block hold after each grid point.

  After point `t` — row block `t / 32`, column block `(t / 8) mod 4`, block `k = t mod 8` of the contracted axis — the
  main accumulator's entry (p, n) is the partial sum over blocks `0 … k` of the products of row `rowOf t p` of `X` and row
  `colOf t n` of `W`, the low-rank accumulator's entry (p, r) the same partial sum against row `r` of `A`, and at the last
  block (`k = 7`) the output block's entry (p, n) is the specification's value at (`rowOf t p`, `colOf t n`).
  By induction on the point: a point with `k = 0` starts both accumulators afresh; any other point continues the
  accumulators of the point before it, which has the same row and column blocks and the preceding `k`.
-/
import proofs.«110622_j91122026152535_2_alg».proof.Proof.Gen.KernelIdeal.Frame
import proofs.«110622_j91122026152535_2_alg».proof.Proof.Pieces
import proofs.«110622_j91122026152535_2_alg».proof.Proof.Steps
import proofs.«110622_j91122026152535_2_alg».proof.Proof.Blocks

noncomputable section

open Idealize.ShloMosaic Idealize.ShloMosaic.TcCoe Idealize.SL.Sem Idealize.ShloMosaic.ValueIdx

namespace Cert.KernelIdeal.Invariant

open Cert.KernelIdeal Cert.KernelIdeal.Gen Cert.KernelIdeal.Pieces Lora

variable (m : (ℓ : Loc nD τ sig) → Buf (Elt Ideal) ℓ)

/-- The four matrices as the kernel is launched on them. -/
abbrev X (c : Dev nD) : Mat 8192 4096 := V m c main_v1
abbrev W (c : Dev nD) : Mat 4096 4096 := V m c main_v2
abbrev A (c : Dev nD) : Mat 4 4096 := V m c main_v3
abbrev B (c : Dev nD) : Mat 4096 4 := V m c main_v4

/-- The statement about the contents after point `n`. -/
def Holds (c : Dev nD) (n : ℕ) (h : n < cfg0.N) : Prop :=
  (∀ (p : Fin 2048) (nn : Fin 1024), (outsAt0 m c n h).2.1 (ix2 p nn)
      = partialSum (prodRow (X m c) (W m c) (rowOf n p) (colOf n nn)) (n % 8))
  ∧ (∀ (p : Fin 2048) (r : Fin 4), (outsAt0 m c n h).2.2 (ix2 p r)
      = partialSum (prodRow (X m c) (A m c) (rowOf n p) r) (n % 8))
  ∧ (n % 8 = 7 → ∀ (p : Fin 2048) (nn : Fin 1024), (outsAt0 m c n h).1 (ix2 p nn)
      = loraLast (X m c) (W m c) (A m c) (B m c) (ix2 (rowOf n p) (colOf n nn)))

/-- A point on the first block of the contracted axis. -/
theorem holds_first (c : Dev nD) (t : Fin cfg0.N) (h0 : t.val % 8 = 0) : Holds m c t.val t.isLt := by
  have h1 : ¬t.val % 8 = 7 := by omega
  have hx : ∀ p q, (iblk m c 0 t : Vec Ideal S2048x512 .bf16) (ix2 p q) = X m c (ix2 (rowOf t.val p) (blkIdx 0 q)) :=
    fun p q => by rw [Blocks.xBlock_apply m c t p q, h0]
  have hw : ∀ n q, (iblk m c 1 t : Vec Ideal S1024x512 .bf16) (ix2 n q) = W m c (ix2 (colOf t.val n) (blkIdx 0 q)) :=
    fun n q => by rw [Blocks.wBlock_apply m c t n q, h0]
  have ha : ∀ r q, aCols (grid0.coords t) (iblk m c 2 t : Vec Ideal S4x4096 .bf16) (ix2 r q) = A m c (ix2 r (blkIdx 0 q)) :=
    fun r q => by rw [Blocks.aCols_block_apply m c t r q, h0]
  unfold Holds
  rw [outsAt0_A m c t h0 h1]
  refine ⟨fun p nn => ?_, fun p r => ?_, fun h7 => absurd h7 h1⟩
  · dsimp only
    refine (congrFun (Pieces.acc_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) (ix2 p nn)).trans ?_
    exact (Steps.acc_first (X m c) (W m c) (rowOf t.val) (colOf t.val) (iblk m c 0 t) (iblk m c 1 t) hx hw p nn).trans (by rw [h0])
  · dsimp only
    refine (congrFun (Pieces.la_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) (ix2 p r)).trans ?_
    exact (Steps.la_first (X m c) (A m c) (rowOf t.val) (iblk m c 0 t) (aCols (grid0.coords t) (iblk m c 2 t)) hx ha p r).trans (by rw [h0])

/-- The point before a point that is not on the first block has the same row and column blocks and the preceding block
    of the contracted axis. -/
theorem prev_facts (t : ℕ) (h0 : ¬t % 8 = 0) :
    (∀ p, rowOf (t - 1) p = rowOf t p) ∧ (∀ n, colOf (t - 1) n = colOf t n) ∧ t % 8 = (t - 1) % 8 + 1 := by
  refine ⟨fun p => Fin.ext ?_, fun n => Fin.ext ?_, by omega⟩
  · show 2048 * ((t - 1) / 32 % 4) + p.val = 2048 * (t / 32 % 4) + p.val
    omega
  · show 1024 * ((t - 1) / 8 % 4) + n.val = 1024 * (t / 8 % 4) + n.val
    omega

/-- A point on a middle block, given the point before it. -/
theorem holds_mid (c : Dev nD) (t : Fin cfg0.N) (h0 : ¬t.val % 8 = 0) (h1 : ¬t.val % 8 = 7)
    (IH : Holds m c (t.val - 1) (Nat.lt_of_le_of_lt (Nat.sub_le _ _) t.isLt)) : Holds m c t.val t.isLt := by
  obtain ⟨hr, hc, hk⟩ := prev_facts t.val h0
  obtain ⟨IHacc, IHla, -⟩ := IH
  have hx : ∀ p q, (iblk m c 0 t : Vec Ideal S2048x512 .bf16) (ix2 p q) = X m c (ix2 (rowOf t.val p) (blkIdx ((t.val - 1) % 8 + 1) q)) :=
    fun p q => by rw [Blocks.xBlock_apply m c t p q, hk]
  have hw : ∀ n q, (iblk m c 1 t : Vec Ideal S1024x512 .bf16) (ix2 n q) = W m c (ix2 (colOf t.val n) (blkIdx ((t.val - 1) % 8 + 1) q)) :=
    fun n q => by rw [Blocks.wBlock_apply m c t n q, hk]
  have ha : ∀ r q, aCols (grid0.coords t) (iblk m c 2 t : Vec Ideal S4x4096 .bf16) (ix2 r q) = A m c (ix2 r (blkIdx ((t.val - 1) % 8 + 1) q)) :=
    fun r q => by rw [Blocks.aCols_block_apply m c t r q, hk]
  have hacc : ∀ p n, (outsAt0 m c (t.val - 1) (Nat.lt_of_le_of_lt (Nat.sub_le _ _) t.isLt)).2.1 (ix2 p n) = partialSum (prodRow (X m c) (W m c) (rowOf t.val p) (colOf t.val n)) ((t.val - 1) % 8) :=
    fun p n => by rw [IHacc p n, hr p, hc n]
  have hla : ∀ p r, (outsAt0 m c (t.val - 1) (Nat.lt_of_le_of_lt (Nat.sub_le _ _) t.isLt)).2.2 (ix2 p r) = partialSum (prodRow (X m c) (A m c) (rowOf t.val p) r) ((t.val - 1) % 8) :=
    fun p r => by rw [IHla p r, hr p]
  unfold Holds
  rw [outsAt0_B m c t h0 h1]
  refine ⟨fun p nn => ?_, fun p r => ?_, fun h7 => absurd h7 h1⟩
  · dsimp only
    refine (congrFun (Pieces.acc_mid (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) (ix2 p nn)).trans ?_
    exact (Steps.acc_next (X m c) (W m c) (rowOf t.val) (colOf t.val) (iblk m c 0 t) (iblk m c 1 t) ((t.val - 1) % 8) (outsAt0 m c (t.val - 1) (Nat.lt_of_le_of_lt (Nat.sub_le _ _) t.isLt)).2.1 hacc hx hw p nn).trans (by rw [hk])
  · dsimp only
    refine (congrFun (Pieces.la_mid (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) (ix2 p r)).trans ?_
    exact (Steps.la_next (X m c) (A m c) (rowOf t.val) (iblk m c 0 t) (aCols (grid0.coords t) (iblk m c 2 t)) ((t.val - 1) % 8) (outsAt0 m c (t.val - 1) (Nat.lt_of_le_of_lt (Nat.sub_le _ _) t.isLt)).2.2 hla hx ha p r).trans (by rw [hk])

/-- A point on the last block, given the point before it. -/
theorem holds_last (c : Dev nD) (t : Fin cfg0.N) (h0 : ¬t.val % 8 = 0) (h1 : t.val % 8 = 7)
    (IH : Holds m c (t.val - 1) (Nat.lt_of_le_of_lt (Nat.sub_le _ _) t.isLt)) : Holds m c t.val t.isLt := by
  obtain ⟨hr, hc, hk⟩ := prev_facts t.val h0
  obtain ⟨IHacc, IHla, -⟩ := IH
  have hx : ∀ p q, (iblk m c 0 t : Vec Ideal S2048x512 .bf16) (ix2 p q) = X m c (ix2 (rowOf t.val p) (blkIdx ((t.val - 1) % 8 + 1) q)) :=
    fun p q => by rw [Blocks.xBlock_apply m c t p q, hk]
  have hw : ∀ n q, (iblk m c 1 t : Vec Ideal S1024x512 .bf16) (ix2 n q) = W m c (ix2 (colOf t.val n) (blkIdx ((t.val - 1) % 8 + 1) q)) :=
    fun n q => by rw [Blocks.wBlock_apply m c t n q, hk]
  have ha : ∀ r q, aCols (grid0.coords t) (iblk m c 2 t : Vec Ideal S4x4096 .bf16) (ix2 r q) = A m c (ix2 r (blkIdx ((t.val - 1) % 8 + 1) q)) :=
    fun r q => by rw [Blocks.aCols_block_apply m c t r q, hk]
  have hb : ∀ n r, (iblk m c 3 t : Vec Ideal S1024x4 .bf16) (ix2 n r) = B m c (ix2 (colOf t.val n) r) :=
    fun n r => Blocks.bBlock_apply m c t n r
  have hacc : ∀ p n, (outsAt0 m c (t.val - 1) (Nat.lt_of_le_of_lt (Nat.sub_le _ _) t.isLt)).2.1 (ix2 p n) = partialSum (prodRow (X m c) (W m c) (rowOf t.val p) (colOf t.val n)) ((t.val - 1) % 8) :=
    fun p n => by rw [IHacc p n, hr p, hc n]
  have hla : ∀ p r, (outsAt0 m c (t.val - 1) (Nat.lt_of_le_of_lt (Nat.sub_le _ _) t.isLt)).2.2 (ix2 p r) = partialSum (prodRow (X m c) (A m c) (rowOf t.val p) r) ((t.val - 1) % 8) :=
    fun p r => by rw [IHla p r, hr p]
  have h7 : (t.val - 1) % 8 + 1 = 7 := by omega
  have hacc' : ∀ p n, k0_pay4 (iblk m c 0 t) (iblk m c 1 t) (outsAt0 m c (t.val - 1) (Nat.lt_of_le_of_lt (Nat.sub_le _ _) t.isLt)).2.1 (ix2 p n)
      = partialSum (prodRow (X m c) (W m c) (rowOf t.val p) (colOf t.val n)) ((t.val - 1) % 8 + 1) :=
    fun p n => Steps.acc_next (X m c) (W m c) (rowOf t.val) (colOf t.val) (iblk m c 0 t) (iblk m c 1 t) ((t.val - 1) % 8) (outsAt0 m c (t.val - 1) (Nat.lt_of_le_of_lt (Nat.sub_le _ _) t.isLt)).2.1 hacc hx hw p n
  have hla' : ∀ p r, k0_pay5 (iblk m c 0 t) (aCols (grid0.coords t) (iblk m c 2 t)) (outsAt0 m c (t.val - 1) (Nat.lt_of_le_of_lt (Nat.sub_le _ _) t.isLt)).2.2 (ix2 p r)
      = partialSum (prodRow (X m c) (A m c) (rowOf t.val p) r) ((t.val - 1) % 8 + 1) :=
    fun p r => Steps.la_next (X m c) (A m c) (rowOf t.val) (iblk m c 0 t) (aCols (grid0.coords t) (iblk m c 2 t)) ((t.val - 1) % 8) (outsAt0 m c (t.val - 1) (Nat.lt_of_le_of_lt (Nat.sub_le _ _) t.isLt)).2.2 hla hx ha p r
  unfold Holds
  rw [outsAt0_C m c t h0 h1]
  refine ⟨fun p nn => ?_, fun p r => ?_, fun _ p nn => ?_⟩
  · dsimp only
    exact (congrFun (Pieces.acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) (ix2 p nn)).trans ((hacc' p nn).trans (by rw [hk]))
  · dsimp only
    exact (congrFun (Pieces.la_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) (ix2 p r)).trans ((hla' p r).trans (by rw [hk]))
  · dsimp only
    refine (congrFun (Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) (ix2 p nn)).trans ?_
    rw [h7] at hacc' hla'
    exact Steps.out_last (X m c) (W m c) (A m c) (B m c) (rowOf t.val) (colOf t.val) (iblk m c 3 t)
      (k0_pay4 (iblk m c 0 t) (iblk m c 1 t) (outsAt0 m c (t.val - 1) (Nat.lt_of_le_of_lt (Nat.sub_le _ _) t.isLt)).2.1)
      (k0_pay5 (iblk m c 0 t) (aCols (grid0.coords t) (iblk m c 2 t)) (outsAt0 m c (t.val - 1) (Nat.lt_of_le_of_lt (Nat.sub_le _ _) t.isLt)).2.2) hacc' hla' hb p nn

/-- After every point. -/
theorem holds (c : Dev nD) : ∀ (n : ℕ) (h : n < cfg0.N), Holds m c n h
  | 0, h => holds_first m c ⟨0, h⟩ rfl
  | n + 1, h => by
    have IH := holds c n (Nat.lt_of_succ_lt h)
    by_cases h0 : (n + 1) % 8 = 0
    · exact holds_first m c ⟨n + 1, h⟩ h0
    · by_cases h1 : (n + 1) % 8 = 7
      · exact holds_last m c ⟨n + 1, h⟩ h0 h1 IH
      · exact holds_mid m c ⟨n + 1, h⟩ h0 h1 IH

end Cert.KernelIdeal.Invariant

end
-- ==== Proof.KernelValue.lean ====
/-
  What the kernel's program leaves in its result array, on the extended reals.

  The output window's block is written back exactly at the points on the last block of the contracted axis, and by
  the accumulator invariant what is written back there is the specification's value on that block's rows and columns.
  The 16 blocks written back (4 row blocks by 4 column blocks) tile the [8192, 4096] array: entry (r, n) is in the block
  of the point with row block `r / 2048`, column block `n / 1024` and last contracted block.  So the array ends holding the
  specification's value `loraOut` of the four matrices the kernel was launched on, and the program's result is that
  array with its rows split back into batch and sequence.
-/
import proofs.«110622_j91122026152535_2_alg».proof.Proof.Gen.KernelIdeal.Frame
import proofs.«110622_j91122026152535_2_alg».proof.Proof.Invariant
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Invariant Lora

variable (m : (ℓ : Loc nD τ sig) → Buf (Elt Ideal) ℓ) (ρ : Dev nD → PrngReg)

/-- The specification's value of the four matrices the kernel is launched on, as contents of the kernel's output array. -/
abbrev G (c : Dev nD) : S8192x4096.Idx → Elt Ideal .f32 := loraOut (X m c) (W m c) (A m c) (B m c)

/-- Entry (p, n) of the output block at a point on the last block of the contracted axis. -/
theorem out_entry (c : Dev nD) (t : Fin cfg0.N) (h7 : t.val % 8 = 7) (p : Fin 2048) (nn : Fin 1024) :
    (outsAt0 m c t.val t.isLt).1 (ix2 p nn) = G m c (ix2 (rowOf t.val p) (colOf t.val nn)) :=
  ((Invariant.holds m c t.val t.isLt).2.2 h7 p nn).trans
    (congrFun (loraLast_eq (X m c) (W m c) (A m c) (B m c)) (ix2 (rowOf t.val p) (colOf t.val nn)))

/-- What a point writes back is its block of the specification's value. -/
theorem flushed_eq (c : Dev nD) (t : Fin cfg0.N) (hf : (cfg0.win 4).flush t = true) :
    (dats m 0 c).flushed 4 t = ((cfg0.win 4).blk t).view.read (Elt Ideal) (G m c) := by
  have h7 : t.val % 8 = 7 := (flush0_4 t).mp hf
  obtain ⟨-, -, -, -, -, -, -, -, e0, e1, -⟩ := Blocks.idx_facts t
  show (cfg0.win 4).cut (grid0.coords t) ((dats m 0 c).after 4 t) = _
  rw [after0_4]
  funext y
  show (outsAt0 m c t.val t.isLt).1 (y : S2048x1024.Idx) = G m c (((cfg0.win 4).blk t).view.emb y)
  refine (congrArg (outsAt0 m c t.val t.isLt).1 (eq_ix2 (y : S2048x1024.Idx))).trans ?_
  refine (out_entry m c t h7 (y 0) (y 1)).trans ?_
  refine congrArg (G m c) (funext fun a => Fin.ext ?_)
  match a with
  | ⟨0, _⟩ =>
    show 2048 * (t.val / 32 % 4) + (y 0).val = win0_4.index t (0 : Fin 2) * 2048 + 1 * (y 0).val
    rw [e0]; omega
  | ⟨1, _⟩ =>
    show 1024 * (t.val / 8 % 4) + (y 1).val = win0_4.index t (1 : Fin 2) * 1024 + 1 * (y 1).val
    rw [e1]; omega

/-- An entry is in a point's output block iff its row and column are in the block's ranges. -/
theorem mem_blk (t : Fin cfg0.N) (i : S8192x4096.Idx) :
    i ∈ ((cfg0.win 4).blk t).view.set ↔ ∀ a : Fin 2, win0_4.index t a * S2048x1024.size a ≤ (i a).val
      ∧ (i a).val < win0_4.index t a * S2048x1024.size a + S2048x1024.size a := by
  show i ∈ ((View.whole main_v5).slice (win0_4.rect t)).set ↔ _
  rw [View.set_slice_whole, Rect.mem_set_unit]
  exact Iff.rfl

/-- Every entry of the array is written back by some point. -/
theorem cover (i : S8192x4096.Idx) :
    ∃ t : Fin cfg0.N, (cfg0.win 4).flush t = true ∧ i ∈ ((cfg0.win 4).blk t).view.set := by
  have hN : cfg0.N = 128 := N_0
  have h0 : (i 0).val < 8192 := (i 0).isLt
  have h1 : (i 1).val < 4096 := (i 1).isLt
  obtain ⟨t, ht⟩ : ∃ t : Fin cfg0.N, t.val = 32 * ((i 0).val / 2048) + 8 * ((i 1).val / 1024) + 7 :=
    ⟨⟨32 * ((i 0).val / 2048) + 8 * ((i 1).val / 1024) + 7, by rw [hN]; omega⟩, rfl⟩
  obtain ⟨-, -, -, -, -, -, -, -, e0, e1, -⟩ := Blocks.idx_facts t
  refine ⟨t, (flush0_4 t).mpr (by rw [ht]; omega), ?_⟩
  rw [mem_blk]
  intro a
  match a with
  | ⟨0, _⟩ =>
    show win0_4.index t (0 : Fin 2) * 2048 ≤ (i 0).val ∧ (i 0).val < win0_4.index t (0 : Fin 2) * 2048 + 2048
    rw [e0, ht]; omega
  | ⟨1, _⟩ =>
    show win0_4.index t (1 : Fin 2) * 1024 ≤ (i 1).val ∧ (i 1).val < win0_4.index t (1 : Fin 2) * 1024 + 1024
    rw [e1, ht]; omega

/-- The output array after the run. -/
theorem final (c : Dev nD) : (dats m 0 c).arrAt 4 cfg0.N = G m c :=
  (dats m 0 c).arrAt_eq_of_cover 4 (G m c) (flushed_eq m c) cover

/-- The program's result: the output array with its rows split back into batch and sequence. -/
abbrev result (c : Dev nD) : S2x4096x4096.Idx → Elt Ideal .f32 :=
  shapeCast S2x4096x4096 (G m c) Facts₀.shapeCasts_S8192x4096_S2x4096x4096

/-- The one host operation after the kernel is that reshape, applied to the output array as the kernel left it. -/
theorem tail_eq (c : Dev nD) :
    Pipeline.afterTail₀ cfgs (dats m) 0 (V0 m) [hostOps1] c main_v6 = result m c := by
  have e : Pipeline.withArrays (cfgs 0).spec c (V0 m c) (fun w => (dats m 0 c).arrAt w (cfgs 0).N) (Proc.devRef .tc main_v5) = G m c :=
    (Pipeline.withArrays_arr spec0 launch0.win.arr_inj c _ _ 4).trans (final m c)
  unfold Pipeline.afterTail₀
  show StableHlo.after hostOps1 _ (Proc.devRef .tc main_v6) = _
  after_results
  rw [e]
  rfl

/-- The run of the kernel's program: its result is `result`, its arguments are unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-! ## The four matrices in terms of the program's arguments

Before the kernel the program flattens batch and sequence of the activations and rounds all four arguments to bf16;
on the extended reals a rounding is the identity. -/

theorem X_eq (c : Dev nD) :
    X m c = shapeCast S8192x4096 (m ((c.tc : Thread nD τ).loc main_arg0)) Facts₀.shapeCasts_S2x4096x4096_S8192x4096 := by
  show StableHlo.after hostOps0 (fun b => m (c, b)) (Proc.devRef .tc main_v1) = _
  after_results
  rfl

theorem W_eq (c : Dev nD) : W m c = m ((c.tc : Thread nD τ).loc main_arg1) := by
  show StableHlo.after hostOps0 (fun b => m (c, b)) (Proc.devRef .tc main_v2) = _
  after_results
  rfl

theorem A_eq' (c : Dev nD) : A m c = m ((c.tc : Thread nD τ).loc main_arg2) := by
  show StableHlo.after hostOps0 (fun b => m (c, b)) (Proc.devRef .tc main_v3) = _
  after_results
  rfl

theorem B_eq (c : Dev nD) : B m c = m ((c.tc : Thread nD τ).loc main_arg3) := by
  show StableHlo.after hostOps0 (fun b => m (c, b)) (Proc.devRef .tc main_v4) = _
  after_results
  rfl

/-- The result in terms of the program's arguments. -/
theorem result_eq (c : Dev nD) : result m c
    = shapeCast S2x4096x4096
        (loraOut (shapeCast S8192x4096 (m ((c.tc : Thread nD τ).loc main_arg0)) Facts₀.shapeCasts_S2x4096x4096_S8192x4096)
          (m ((c.tc : Thread nD τ).loc main_arg1)) (m ((c.tc : Thread nD τ).loc main_arg2)) (m ((c.tc : Thread nD τ).loc main_arg3)))
        Facts₀.shapeCasts_S8192x4096_S2x4096x4096 := by
  show shapeCast S2x4096x4096 (loraOut (X m c) (W m c) (A m c) (B m c)) _ = _
  rw [X_eq, W_eq, A_eq', B_eq]

end Cert.KernelIdeal.Result

end
-- ==== Proof.RefValue.lean ====
/-
  The reference computes the same function.

  The reference contracts the last axis of the activations [2, 4096, 4096] directly against `W`, `A` and then `B`:
  at (b, l, o) it is  Σ_i x[b,l,i]·W[o,i] + (Σ_q (Σ_i x[b,l,i]·A[q,i])·B[o,q])·4.  The specification is stated on the
  activations with batch and sequence flattened, and entry (b, l, i) of the activations is entry (4096 b + l, i) of the
  flattened matrix (the same row-major position), so the reference's result is the specification's value with its rows
  split back into batch and sequence.
-/
import proofs.«110622_j91122026152535_2_alg».proof.Proof.Gen.ReferenceIdeal.Read
import proofs.«110622_j91122026152535_2_alg».proof.Proof.LoraSpec
import Idealize.ShloMosaic.Lib.Pipeline.Value
import Idealize.ShloMosaic.Lib.ValueIdx

noncomputable section

open Idealize.ShloMosaic Idealize.ShloMosaic.TcCoe Idealize.ShloMosaic.ValueIdx

namespace Cert.ReferenceIdeal.RefValue

open Cert.ReferenceIdeal Cert.ReferenceIdeal.Read Lora

/-- Row `4096 b + l` of the flattened activations. -/
def flat (b : Fin 2) (l : Fin 4096) : Fin 8192 := ⟨4096 * b.val + l.val, by have := b.isLt; have := l.isLt; omega⟩

/-- Flattening batch and sequence keeps the row-major position. -/
theorem flatten_apply (x : (⟨3, ![2, 4096, 4096]⟩ : Shape).Idx → EReal)
    (h : (⟨3, ![2, 4096, 4096]⟩ : Shape).ShapeCasts ⟨2, ![8192, 4096]⟩) (b : Fin 2) (l : Fin 4096) (k : Fin 4096) :
    shapeCast (⟨2, ![8192, 4096]⟩ : Shape) x h (ix2 (flat b l) k) = x (ix3 b l k) :=
  shapeCast_apply x h (ix2 (flat b l) k) (ix3 b l k) (by
    rw [Shape.rowMajor_val_three, Shape.rowMajor_val_two]
    show (b.val * 4096 + l.val) * 4096 + k.val = (4096 * b.val + l.val) * 4096 + k.val
    omega)

/-- Splitting the rows back keeps it too. -/
theorem unflatten_apply (g : (⟨2, ![8192, 4096]⟩ : Shape).Idx → EReal)
    (h : (⟨2, ![8192, 4096]⟩ : Shape).ShapeCasts ⟨3, ![2, 4096, 4096]⟩) (b : Fin 2) (l : Fin 4096) (o : Fin 4096) :
    shapeCast (⟨3, ![2, 4096, 4096]⟩ : Shape) g h (ix3 b l o) = g (ix2 (flat b l) o) :=
  shapeCast_apply g h (ix3 b l o) (ix2 (flat b l) o) (by
    rw [Shape.rowMajor_val_three, Shape.rowMajor_val_two]
    show (4096 * b.val + l.val) * 4096 + o.val = (b.val * 4096 + l.val) * 4096 + o.val
    omega)

/-- The reference's result is the specification's value of the flattened activations, rows split back. -/
theorem ref_eq (x : (⟨3, ![2, 4096, 4096]⟩ : Shape).Idx → EReal) (W : Mat 4096 4096) (A : Mat 4 4096) (B : Mat 4096 4)
    (h : (⟨3, ![2, 4096, 4096]⟩ : Shape).ShapeCasts ⟨2, ![8192, 4096]⟩)
    (h' : (⟨2, ![8192, 4096]⟩ : Shape).ShapeCasts ⟨3, ![2, 4096, 4096]⟩) :
    val_main_v5 (F := Ideal) x W A B
      = shapeCast (⟨3, ![2, 4096, 4096]⟩ : Shape) (loraOut (shapeCast (⟨2, ![8192, 4096]⟩ : Shape) x h) W A B) h' := by
  funext i
  obtain ⟨b, l, o, rfl⟩ : ∃ (b : Fin 2) (l : Fin 4096) (o : Fin 4096), i = ix3 b l o := ⟨i 0, i 1, i 2, eq_ix3 i⟩
  have e0l : ∀ k, lidx_main_v0 (ix3 b l o) k = ix3 b l k := fun k => funext fun a => Fin.ext (by
    match a with | ⟨0, _⟩ => rfl | ⟨1, _⟩ => rfl | ⟨2, _⟩ => rfl)
  have e0r : ∀ k, ridx_main_v0 (ix3 b l o) k = ix2 o k := fun k => funext fun a => Fin.ext (by
    match a with | ⟨0, _⟩ => rfl | ⟨1, _⟩ => rfl)
  have e1l : ∀ q k, lidx_main_v1 (lidx_main_v2 (ix3 b l o) q) k = ix3 b l k := fun q k => funext fun a => Fin.ext (by
    match a with | ⟨0, _⟩ => rfl | ⟨1, _⟩ => rfl | ⟨2, _⟩ => rfl)
  have e1r : ∀ q k, ridx_main_v1 (lidx_main_v2 (ix3 b l o) q) k = ix2 q k := fun q k => funext fun a => Fin.ext (by
    match a with | ⟨0, _⟩ => rfl | ⟨1, _⟩ => rfl)
  have e2r : ∀ q, ridx_main_v2 (ix3 b l o) q = ix2 o q := fun q => funext fun a => Fin.ext (by
    match a with | ⟨0, _⟩ => rfl | ⟨1, _⟩ => rfl)
  rw [val_main_v5_apply, val_main_v4_apply, val_main_v0_apply, val_main_v2_apply, val_main_v3_apply, val_main_cst_apply,
    unflatten_apply]
  simp only [val_main_v1_apply, e0l, e0r, e1l, e1r, e2r]
  unfold loraOut prodRow
  simp only [flatten_apply]
  rfl

end Cert.ReferenceIdeal.RefValue

end
-- ==== Proof.lean ====
/-
  The kernel computes, for activations `x` [2, 4096, 4096] and matrices `W` [4096, 4096], `A` [4, 4096], `B` [4096, 4],

      out[b,l,o] = Σ_i x[b,l,i]·W[o,i] + ( Σ_q ( Σ_i x[b,l,i]·A[q,i] ) · B[o,q] ) · 4,

  with batch and sequence flattened to 8192 rows, the contracted axis taken in eight blocks of 512 into two
  accumulators, and the two combined after the last block; the reference contracts the whole axis at once.
  On the extended reals the two results are equal entry by entry, because a finite sum may be taken block by block
  (associativity and commutativity of addition only; no finiteness of the inputs is used) and a change of float
  format is the identity.

  The modules:
    LibBlockedSum  a finite sum taken block by block, and its partial sums (any sizes, any commutative monoid);
    LoraSpec     the contracted axis as eight blocks of 512; the function both programs compute, and its form over
                 the last partial sums;
    Pieces       what the kernel body leaves in its accumulators and output block, as its arithmetic of the loaded blocks;
    Payloads     that arithmetic entry by entry (three matrix products into zero accumulators, two updates, the output);
    Steps        the accumulator recurrence against the partial sums, the loaded blocks known by where their entries sit;
    Blocks       where the entries of the blocks loaded at a grid point sit in the four matrices;
    Invariant    the accumulators and the output block after every grid point, by induction on the point;
    KernelValue  the kernel program's result array: the blocks written back tile it; the reshape after the kernel;
    RefValue     the reference's result is the same function;
  and here the five claims: the three frames (the two kernels' are generated; the reference's is its generated run),
  the idealization (nothing was rewritten), and the equality of the two idealized programs' results.
-/
import proofs.«110622_j91122026152535_2_alg».proof.Defs
import proofs.«110622_j91122026152535_2_alg».proof.Proof.Gen.Kernel
import proofs.«110622_j91122026152535_2_alg».proof.Proof.Gen.Kernel.Skeleton
import proofs.«110622_j91122026152535_2_alg».proof.Proof.Gen.Kernel.Launch
import proofs.«110622_j91122026152535_2_alg».proof.Proof.Gen.Kernel.Points
import proofs.«110622_j91122026152535_2_alg».proof.Proof.Gen.Kernel.Frame
import proofs.«110622_j91122026152535_2_alg».proof.Proof.Gen.KernelIdeal
import proofs.«110622_j91122026152535_2_alg».proof.Proof.Gen.KernelIdeal.Skeleton
import proofs.«110622_j91122026152535_2_alg».proof.Proof.Gen.KernelIdeal.Launch
import proofs.«110622_j91122026152535_2_alg».proof.Proof.Gen.KernelIdeal.Points
import proofs.«110622_j91122026152535_2_alg».proof.Proof.Gen.KernelIdeal.Frame
import proofs.«110622_j91122026152535_2_alg».proof.Proof.Gen.ReferenceIdeal
import proofs.«110622_j91122026152535_2_alg».proof.Proof.Gen.ReferenceIdeal.Run
import proofs.«110622_j91122026152535_2_alg».proof.Proof.Gen.ReferenceIdeal.Read
import proofs.«110622_j91122026152535_2_alg».proof.Proof.Gen.Pre_finite_inputs
import proofs.«110622_j91122026152535_2_alg».proof.Proof.KernelValue
import proofs.«110622_j91122026152535_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals the kernel's result array ends at the specification's value of its arguments (rows split back
    into batch and sequence), and so does the reference's, from arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, (hagree c).1, (hagree c).2.1, (hagree c).2.2.1, (hagree c).2.2.2]
  refine Eq.trans ?_ (Cert.KernelIdeal.Result.result_eq m c).symm
  exact Cert.ReferenceIdeal.RefValue.ref_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
